-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S32x32x1024 : Shape := ⟨3, ![32, 32, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S32x32x1024 : S_.BroadcastsInDim S32x32x1024 (![] : Fin 0 → Fin S32x32x1024.rank)
  reducesTo_S32x32x1024_S_d0_1_2 : S32x32x1024.ReducesTo [0, 1, 2] S_

variable [Facts]

def fn {F : FTy → Type} [FloatOps F] (main_arg0 : FVec F S16384x1024 .f32) (main_arg1 : FVec F S32x32x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S32x32x1024 .f32 := Host.absf main_arg1
  let main_cst_0 : FVec F S_ .f32 := constant S_ .f32 0x7F800000#32
  let main_v5 : FVec F S32x32x1024 .f32 := broadcastInDim S32x32x1024 ![] bcast_S_S32x32x1024 main_cst_0
  let main_v6 : IVec S32x32x1024 1 := cmpf .olt main_v4 main_v5
  let main_c_1 : IVec S_ 1 := constantI S_ 1 1#1
  let main_v7 : IVec S_ 1 := (fun x v => Host.reduce IntOp.andi x v reducesTo_S32x32x1024_S_d0_1_2 h_S_) main_v6 main_c_1
  let main_v8 : IVec S_ 1 := andi main_v3 main_v7
  main_v8
-- ==== Kernel.lean ====
abbrev S16384x1024 : Shape := ⟨2, ![16384, 1024]⟩
abbrev S32x32x1024 : Shape := ⟨3, ![32, 32, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1x1024 : Shape := ⟨2, ![1, 1024]⟩
abbrev S512x32x32 : Shape := ⟨3, ![512, 32, 32]⟩
abbrev S512x32 : Shape := ⟨2, ![512, 32]⟩
abbrev S512x1x32 : Shape := ⟨3, ![512, 1, 32]⟩
abbrev S512x32x1 : Shape := ⟨3, ![512, 32, 1]⟩
abbrev S512x1x1 : Shape := ⟨3, ![512, 1, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S32x32x1024, .f32⟩
  | .hbm, ⟨2, _⟩ => ⟨S1024x1024, .f32⟩
  | .hbm, ⟨3, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S512x1024, .f32⟩
  | .local _ .vmem, ⟨4, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x32x1024_S1024x1024 : S32x32x1024.ShapeCasts S1024x1024
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  reduces_S512x1024_S512 : S512x1024.Reduces [1] S512
  shapeCasts_S512_S512x1 : S512.ShapeCasts S512x1
  reduces_S1024x1024_S1024 : S1024x1024.Reduces [1] S1024
  shapeCasts_S1024_S1x1024 : S1024.ShapeCasts S1x1024
  transposes_S1024x1024_p1_0_S1024x1024 : S1024x1024.Transposes [1, 0] S1024x1024
  broadcasts_S512x1_S512x1024 : S512x1.Broadcasts S512x1024
  broadcasts_S1x1024_S512x1024 : S1x1024.Broadcasts S512x1024
  shapeCasts_S512x1024_S512x32x32 : S512x1024.ShapeCasts S512x32x32
  reduces_S512x32x32_S512x32 : S512x32x32.Reduces [1] S512x32
  shapeCasts_S512x32_S512x1x32 : S512x32.ShapeCasts S512x1x32
  broadcasts_S512x1x32_S512x32x32 : S512x1x32.Broadcasts S512x32x32
  reduces_S512x32x32_S512x32_2 : S512x32x32.Reduces [2] S512x32
  shapeCasts_S512x32_S512x32x1 : S512x32.ShapeCasts S512x32x1
  broadcasts_S512x32x1_S512x32x32 : S512x32x1.Broadcasts S512x32x32
  reduces_S512x32x1_S512x1 : S512x32x1.Reduces [1] S512x1
  shapeCasts_S512x1_S512x1x1 : S512x1.ShapeCasts S512x1x1
  broadcasts_S512x1x1_S512x32x32 : S512x1x1.Broadcasts S512x32x32
  shapeCasts_S512x32x32_S512x1024 : S512x32x32.ShapeCasts S512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x1024.size a
  hwx0_2 : ∀ i : grid0.Coords, EltTy.bits .f32 = 32 ∨ (Rect.block (s := S16384x1024) S512x1024.size (cc0_transform_2 i) (hinb0_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S32x32x1024 : Shape := ⟨3, ![32, 32, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x32x32 : Shape := ⟨3, ![16384, 32, 32]⟩
abbrev S16384x32 : Shape := ⟨2, ![16384, 32]⟩
abbrev S16384x1x32 : Shape := ⟨3, ![16384, 1, 32]⟩
abbrev S16384x32x1 : Shape := ⟨3, ![16384, 32, 1]⟩
abbrev S16384x1x1 : Shape := ⟨3, ![16384, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S32x32x1024, .f32⟩
  | .hbm, ⟨2, _⟩ => ⟨S1024x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S1024x1024, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S1024x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S16384x32x32, .f32⟩
  | .hbm, ⟨25, _⟩ => ⟨S_, .f32⟩
  | .hbm, ⟨26, _⟩ => ⟨S16384x32, .f32⟩
  | .hbm, ⟨27, _⟩ => ⟨S_, .f32⟩
  | .hbm, ⟨28, _⟩ => ⟨S16384x32, .f32⟩
  | .hbm, ⟨29, _⟩ => ⟨S16384x32, .f32⟩
  | .hbm, ⟨30, _⟩ => ⟨S16384x1x32, .f32⟩
  | .hbm, ⟨31, _⟩ => ⟨S16384x32x32, .f32⟩
  | .hbm, ⟨32, _⟩ => ⟨S16384x32x32, .f32⟩
  | .hbm, ⟨33, _⟩ => ⟨S16384x32x32, .f32⟩
  | .hbm, ⟨34, _⟩ => ⟨S_, .f32⟩
  | .hbm, ⟨35, _⟩ => ⟨S16384x32, .f32⟩
  | .hbm, ⟨36, _⟩ => ⟨S16384x1x32, .f32⟩
  | .hbm, ⟨37, _⟩ => ⟨S16384x32x32, .f32⟩
  | .hbm, ⟨38, _⟩ => ⟨S16384x32x32, .f32⟩
  | .hbm, ⟨39, _⟩ => ⟨S_, .f32⟩
  | .hbm, ⟨40, _⟩ => ⟨S16384x32, .f32⟩
  | .hbm, ⟨41, _⟩ => ⟨S_, .f32⟩
  | .hbm, ⟨42, _⟩ => ⟨S16384x32, .f32⟩
  | .hbm, ⟨43, _⟩ => ⟨S16384x32, .f32⟩
  | .hbm, ⟨44, _⟩ => ⟨S16384x32x1, .f32⟩
  | .hbm, ⟨45, _⟩ => ⟨S16384x32x32, .f32⟩
  | .hbm, ⟨46, _⟩ => ⟨S16384x32x32, .f32⟩
  | .hbm, ⟨47, _⟩ => ⟨S16384x32x32, .f32⟩
  | .hbm, ⟨48, _⟩ => ⟨S_, .f32⟩
  | .hbm, ⟨49, _⟩ => ⟨S16384x32, .f32⟩
  | .hbm, ⟨50, _⟩ => ⟨S16384x32x1, .f32⟩
  | .hbm, ⟨51, _⟩ => ⟨S16384x32x32, .f32⟩
  | .hbm, ⟨52, _⟩ => ⟨S16384x32x32, .f32⟩
  | .hbm, ⟨53, _⟩ => ⟨S16384x32x32, .f32⟩
  | .hbm, ⟨54, _⟩ => ⟨S_, .f32⟩
  | .hbm, ⟨55, _⟩ => ⟨S16384, .f32⟩
  | .hbm, ⟨56, _⟩ => ⟨S16384x1x1, .f32⟩
  | .hbm, ⟨57, _⟩ => ⟨S_, .f32⟩
  | .hbm, ⟨58, _⟩ => ⟨S16384x1x1, .f32⟩
  | .hbm, ⟨59, _⟩ => ⟨S16384x1x1, .f32⟩
  | .hbm, ⟨60, _⟩ => ⟨S16384x32x32, .f32⟩
  | .hbm, ⟨61, _⟩ => ⟨S16384x32x32, .f32⟩
  | .hbm, ⟨62, _⟩ => ⟨S16384x1024, .f32⟩
  | .hbm, ⟨63, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_6 : Ref sig .tc := ⟨.hbm, 39, rfl⟩
abbrev main_v30 : Ref sig .tc := ⟨.hbm, 40, rfl⟩
abbrev main_cst_7 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_8 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_9 : Ref sig .tc := ⟨.hbm, 54, rfl⟩
abbrev main_v42 : Ref sig .tc := ⟨.hbm, 55, rfl⟩
abbrev main_v43 : Ref sig .tc := ⟨.hbm, 56, rfl⟩
abbrev main_cst_10 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩

abbrev nD : Nat := 1
abbrev τ : Topo := Topo.v7x

variable {F : FTy → Type} [FloatOps F]

class Facts₀ : Prop where
  shapeCasts_S32x32x1024_S1024x1024 : S32x32x1024.ShapeCasts S1024x1024
  reducesTo_S16384x1024_S16384_d1 : S16384x1024.ReducesTo [1] S16384
  h_S_ : 0 < S_.numel
  bcast_S16384_S16384x1_0 : S16384.BroadcastsInDim S16384x1 (![0] : Fin 1 → Fin S16384x1.rank)
  reducesTo_S1024x1024_S1024_d1 : S1024x1024.ReducesTo [1] S1024
  bcast_S1024_S1x1024_1 : S1024.BroadcastsInDim S1x1024 (![1] : Fin 1 → Fin S1x1024.rank)
  transposes_S1024x1024_S1024x1024_1_0 : S1024x1024.Transposes [1, 0] S1024x1024
  bcast_S_S16384x1024 : S_.BroadcastsInDim S16384x1024 (![] : Fin 0 → Fin S16384x1024.rank)
  bcast_S16384x1_S16384x1024_0_1 : S16384x1.BroadcastsInDim S16384x1024 (![0, 1] : Fin 2 → Fin S16384x1024.rank)
  bcast_S1x1024_S16384x1024_0_1 : S1x1024.BroadcastsInDim S16384x1024 (![0, 1] : Fin 2 → Fin S16384x1024.rank)
  shapeCasts_S16384x1024_S16384x32x32 : S16384x1024.ShapeCasts S16384x32x32
  reducesTo_S16384x32x32_S16384x32_d1 : S16384x32x32.ReducesTo [1] S16384x32
  bcast_S_S16384x32 : S_.BroadcastsInDim S16384x32 (![] : Fin 0 → Fin S16384x32.rank)
  bcast_S16384x32_S16384x1x32_0_2 : S16384x32.BroadcastsInDim S16384x1x32 (![0, 2] : Fin 2 → Fin S16384x1x32.rank)
  bcast_S16384x1x32_S16384x32x32_0_1_2 : S16384x1x32.BroadcastsInDim S16384x32x32 (![0, 1, 2] : Fin 3 → Fin S16384x32x32.rank)
  reducesTo_S16384x32x32_S16384x32_d2 : S16384x32x32.ReducesTo [2] S16384x32
  bcast_S16384x32_S16384x32x1_0_1 : S16384x32.BroadcastsInDim S16384x32x1 (![0, 1] : Fin 2 → Fin S16384x32x1.rank)
  bcast_S16384x32x1_S16384x32x32_0_1_2 : S16384x32x1.BroadcastsInDim S16384x32x32 (![0, 1, 2] : Fin 3 → Fin S16384x32x32.rank)
  reducesTo_S16384x32x32_S16384_d1_2 : S16384x32x32.ReducesTo [1, 2] S16384
  bcast_S16384_S16384x1x1_0 : S16384.BroadcastsInDim S16384x1x1 (![0] : Fin 1 → Fin S16384x1x1.rank)
  bcast_S_S16384x1x1 : S_.BroadcastsInDim S16384x1x1 (![] : Fin 0 → Fin S16384x1x1.rank)
  bcast_S16384x1x1_S16384x32x32_0_1_2 : S16384x1x1.BroadcastsInDim S16384x32x32 (![0, 1, 2] : Fin 3 → Fin S16384x32x32.rank)
  shapeCasts_S16384x32x32_S16384x1024 : S16384x32x32.ShapeCasts S16384x1024
  dot_S16384x1024_S1024x1024_S16384x1024_1_0_0_1_n_n_wf : DotDims.WF S16384x1024 S1024x1024 S16384x1024 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.Spec.lean ====
/-
  The soft self-organising-map layer as one function of its two arguments, entry by entry, over the extended reals.

  A row `x` of 1024 numbers is compared with the 1024 codebook vectors `W n` (the 32 × 32 map's cells, cell (a, b)
  being vector `a·32 + b`): the logit of a cell is minus the squared distance `‖x‖² − 2·⟨x, W n⟩ + ‖W n‖²`, divided
  by the temperature one. On the 32 × 32 grid of logits two softmaxes are taken, one down each column and one
  along each row, each with its maximum subtracted first; their product is normalised by its total mass plus a
  small constant, and the output row is the weighted sum of the codebook vectors. Every row of the result depends
  on its own row of the input only.
-/
import Idealize.ShloMosaic.PureOps.Ideal
import Idealize.ShloMosaic.Lib.ValueIdx

noncomputable section

namespace Cert.Som

open Idealize.ShloMosaic Idealize.ShloMosaic.ValueIdx

/-- One input row, the codebook as a matrix (vector `n`, coordinate `k`), and a 32 × 32 grid of numbers. -/
abbrev Row := Fin 1024 → EReal
abbrev Book := Fin 1024 → Fin 1024 → EReal
abbrev Grid := Fin 32 → Fin 32 → EReal

/-- The four float constants of the layer: 2, the temperature 1, −∞ and the normaliser's 1e-8 (as its f32 word). -/
def two : EReal := Ideal.ofBits .f32 0x40000000#32
def one : EReal := Ideal.ofBits .f32 0x3F800000#32
def ninf : EReal := Ideal.ofBits .f32 0xFF800000#32
def eps : EReal := Ideal.ofBits .f32 0x322BCC77#32

/-- The inner product of two rows. -/
def dot (u v : Row) : EReal := ∑ k : Fin 1024, u k * v k

/-- Minus the squared distance between the row and codebook vector `n`, over the temperature. -/
def logit (xr : Row) (W : Book) (n : Fin 1024) : EReal :=
  Ideal.div (-((dot xr xr - two * dot xr (W n)) + dot (W n) (W n))) one

/-- Cell (a, b) of the map is codebook vector `a·32 + b`; vector `n` sits in cell (n / 32, n % 32). -/
def cell (a b : Fin 32) : Fin 1024 := ⟨a.val * 32 + b.val, by omega⟩
def cellRow (n : Fin 1024) : Fin 32 := ⟨n.val / 32, by omega⟩
def cellCol (n : Fin 1024) : Fin 32 := ⟨n.val % 32, by omega⟩

/-- The logits laid out on the map. -/
def grid (xr : Row) (W : Book) : Grid := fun a b => logit xr W (cell a b)

/-- The maximum down column `b` and along row `a`, each started from −∞ and capped below by −∞ once more. -/
def colMax (L : Grid) (b : Fin 32) : EReal := max ninf ((Finset.univ : Finset (Fin 32)).fold max ninf fun a => L a b)
def rowMax (L : Grid) (a : Fin 32) : EReal := max ninf ((Finset.univ : Finset (Fin 32)).fold max ninf fun b => L a b)

/-- The shifted exponentials and the two softmaxes. -/
def colExp (L : Grid) (a b : Fin 32) : EReal := Ideal.exp (L a b - colMax L b)
def rowExp (L : Grid) (a b : Fin 32) : EReal := Ideal.exp (L a b - rowMax L a)
def colSoft (L : Grid) (a b : Fin 32) : EReal := Ideal.div (colExp L a b) (∑ a' : Fin 32, colExp L a' b)
def rowSoft (L : Grid) (a b : Fin 32) : EReal := Ideal.div (rowExp L a b) (∑ b' : Fin 32, rowExp L a b')

/-- Their product, its total mass plus the small constant, and the normalised weights. -/
def both (L : Grid) (a b : Fin 32) : EReal := colSoft L a b * rowSoft L a b
def mass (L : Grid) : EReal := (∑ a : Fin 32, ∑ b : Fin 32, both L a b) + eps
def weight (L : Grid) (a b : Fin 32) : EReal := Ideal.div (both L a b) (mass L)

/-- The output row: the codebook vectors weighted by their cells' weights. -/
def rowOut (xr : Row) (W : Book) (d : Fin 1024) : EReal :=
  ∑ n : Fin 1024, weight (grid xr W) (cellRow n) (cellCol n) * W n d

/-- The codebook matrix read off the 32 × 32 × 1024 weight array: vector `n` is the array's cell (n / 32, n % 32). -/
def book (w : (⟨3, ![32, 32, 1024]⟩ : Shape).Idx → EReal) : Book := fun n k => w (ix3 (cellRow n) (cellCol n) k)

/-- The whole layer: entry (r, d) of the result is the output row of input row `r` at `d`. -/
def layer (x : (⟨2, ![16384, 1024]⟩ : Shape).Idx → EReal) (w : (⟨3, ![32, 32, 1024]⟩ : Shape).Idx → EReal) :
    (⟨2, ![16384, 1024]⟩ : Shape).Idx → EReal :=
  fun i => rowOut (fun k => x (ix2 (i 0) k)) (book w) (i 1)

theorem cell_cellRow_cellCol (n : Fin 1024) : cell (cellRow n) (cellCol n) = n :=
  Fin.ext (by show n.val / 32 * 32 + n.val % 32 = n.val; omega)

theorem cellRow_cell (a b : Fin 32) : cellRow (cell a b) = a :=
  Fin.ext (by show (a.val * 32 + b.val) / 32 = a.val; omega)

theorem cellCol_cell (a b : Fin 32) : cellCol (cell a b) = b :=
  Fin.ext (by show (a.val * 32 + b.val) % 32 = b.val; omega)

end Cert.Som

end
-- ==== Proof.LibDotEntry.lean ====
/-
  A matrix product read at an entry, on the host and on the TensorCore. At exact arithmetic the host's `dot_general` of an m×K matrix by a K×n
  matrix, whose dimension numbers contract the left factor's columns against the right factor's rows, has at entry
  (p, q) the sum over k of left (p, k) · right (k, q) — the same sum a TensorCore matrix product into a zero
  accumulator has there. Stated for any dimension record of these three shapes, given where it sends an output index
  and a contraction index.
-/
import Idealize.ShloMosaic.Lib.ValueIdx
import Idealize.ShloMosaic.PureOps.Ideal.Laws

noncomputable section

namespace Cert.Lib.DotEntry

open Idealize.ShloMosaic Idealize.ShloMosaic.TcCoe Idealize.SL.Sem Idealize.ShloMosaic.ValueIdx

/-- The host's product of an m×K by a K×n matrix, read at entry (p, q), is the sum over the one contracted axis of
    the products of row p of the left factor with column q of the right factor. The four hypotheses say where the
    product's dimension numbers send an output index and a contraction index: to (row, k) on the left and
    (k, column) on the right. -/
theorem dotGeneral_ix2 {m K n : Nat} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ .f32) (rhs : FVec Ideal ⟨2, ![K, n]⟩ .f32) (p : Fin m) (q : Fin n) :
    Host.dotGeneral (F := Ideal) D none lhs rhs (ix2 p q) = ∑ k : Fin K, lhs (ix2 p k) * rhs (ix2 k q) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A TensorCore product of an m×K by a K×n matrix (of any two float formats: at exact arithmetic a format is only a
    label) into a zero accumulator, read at entry (p, q), is the same sum. -/
theorem matmul_zero_ix2 {m K n : Nat} {φ₁ φ₂ : FTy} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ φ₁) (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.Lib.DotEntry

end
-- ==== Proof.LibRowOps.lean ====
/-
  Row-wise building blocks of a `keepdims` normalisation, each read at an entry, at exact arithmetic.

  A kernel that divides every row of an [a, b] block by the row's sum builds the divisor in three steps: the lane
  sum [a, b] → [a], the cast [a] → [a, 1] that restores the dropped axis as a unit axis, and the broadcast
  [a, 1] → [a, b] that repeats each row's sum along the row. Read at entry (p, c) the three steps compose to
  `Σₖ x(p, k)`. Beside them: a matrix product of an [m, K] block by an [n, K] block that contracts the two trailing
  axes (the right factor stored row-per-output-column), into a zero accumulator, read at entry (p, q) as
  `Σₖ left(p, k) · right(q, k)`.
-/
import Idealize.ShloMosaic.Lib.ValueIdx
import Idealize.ShloMosaic.Lib.Pipeline.Value
import Idealize.ShloMosaic.PureOps.Ideal.Laws

noncomputable section

namespace Cert.Lib.RowOps

open Idealize.ShloMosaic Idealize.ShloMosaic.TcCoe Idealize.SL.Sem Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` block over its second axis, read at row `p`, is the sum of the row's entries. -/
theorem multiReduction_add_lanes {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ) (p : Fin a) :
    multiReduction (F := Ideal) .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext c; apply Fin.ext
  match c with
  | ⟨0, _⟩ => rfl
  | ⟨1, _⟩ => rfl

/-- The three steps composed: the row sum, kept as a unit axis and repeated along the row, read at `(p, c)`. -/
theorem rowSum_keepdims_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩) (p : Fin a) (c : Fin b) :
    broadcastTo ⟨2, ![a, b]⟩ (shapeCast ⟨2, ![a, 1]⟩ (multiReduction (F := Ideal) .add [1] ⟨1, ![a]⟩ src acc h hφ hacc) hc) hb (ix2 p c)
      = ∑ k : Fin b, src (ix2 p k) :=
  (broadcastTo_a1_ab_apply _ hb p c).trans ((shapeCast_a_a1_apply _ hc p 0).trans (multiReduction_add_lanes src acc h hφ hacc p))

/-- A TensorCore product of an m×K block by an n×K block contracting the two trailing axes, into a zero accumulator,
    read at entry (p, q): the sum over k of left (p, k) · right (q, k). The four hypotheses say where the product's
    dimension numbers send an output index and a contraction index: to (row, k) on the left and (column, k) on the
    right. -/
theorem matmul_nt_zero_ix2 {m K n : Nat} {φ₁ φ₂ : FTy} (D : DotDims ⟨2, ![m, K]⟩ ⟨2, ![n, K]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (i 1).val)
    (hr1 : ∀ (i : (⟨2, ![m, n]⟩ : Shape).Idx) (c : D.contr.Idx), (D.rhsIdx i c 1).val = (c ⟨0, by omega⟩).val)
    (lhs : FVec Ideal ⟨2, ![m, K]⟩ φ₁) (rhs : FVec Ideal ⟨2, ![n, K]⟩ φ₂) (p : Fin m) (q : Fin n) :
    matmul D none lhs rhs (constant (F := Ideal) ⟨2, ![m, n]⟩ .f32 0x00000000#32) (ix2 p q)
      = ∑ k : Fin K, lhs (ix2 p k) * rhs (ix2 q k) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

end Cert.Lib.RowOps

end
-- ==== Proof.KerLogit.lean ====
/-
  The logits the kernel computes for one block of 512 input rows, read at row `p` and map cell (a, b).

  The block's payload forms ‖x‖² (a lane sum kept as a column and repeated along the row), ‖W n‖² (a lane sum of the
  codebook laid out as one row and repeated down the block) and ⟨x, W n⟩ (a matrix product of the block with the
  transposed codebook, into a zero accumulator), combines them as 0 − ((‖x‖² − 2·⟨x, W n⟩) + ‖W n‖²), divides by one,
  and re-lays the 1024 columns as the 32 × 32 map. Entry (p, a, b) is therefore the logit of row `p` and cell (a, b):
  the only law used is 0 − y = −y on the extended reals.
-/
import proofs.«101707_j67894843015429_1_alg».proof.Proof.Gen.KernelIdeal.Skeleton
import proofs.«101707_j67894843015429_1_alg».proof.Proof.Spec
import proofs.«101707_j67894843015429_1_alg».proof.Proof.LibDotEntry
import proofs.«101707_j67894843015429_1_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.SomValue

open Cert.KernelIdeal Cert.KernelIdeal.Gen Idealize.ShloMosaic Idealize.ShloMosaic.TcCoe Idealize.SL.Sem
open Idealize.ShloMosaic.ValueIdx Cert.Som

/-- Row `p` of a 512 × 1024 block, and a 1024 × 1024 block read as a codebook (vector `n`, coordinate `k`). -/
def rowOf (v0 : Vec Ideal S512x1024 .f32) (p : Fin 512) : Row := fun k => v0 (ix2 p k)
def bookOf (v1 : Vec Ideal S1024x1024 .f32) : Book := fun n k => v1 (ix2 n k)

/-! ## Where the matrix product's dimension record sends an output index and a contraction index -/

theorem dd_lhs0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl
theorem dd_lhs1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
theorem dd_rhs0 (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q
theorem dd_rhs1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- A product of a 512 × 1024 block by a 1024 × 1024 block into a zero accumulator, at entry (p, q): the sum over
    the contracted axis of left (p, k) · right (k, q). -/
theorem product_entry {φ₁ φ₂ : FTy} (lhs : FVec Ideal S512x1024 φ₁) (rhs : FVec Ideal S1024x1024 φ₂) (p : Fin 512) (q : Fin 1024) :
    matmul dot_S512x1024_S1024x1024_S512x1024_1_0_0_1_n_n none lhs rhs (constant (F := Ideal) S512x1024 .f32 0x00000000#32) (ix2 p q)
      = ∑ k : Fin 1024, lhs (ix2 p k) * rhs (ix2 k q) :=
  Cert.Lib.DotEntry.matmul_zero_ix2 dot_S512x1024_S1024x1024_S512x1024_1_0_0_1_n_n rfl rfl dd_lhs0 dd_lhs1 dd_rhs0 dd_rhs1 lhs rhs p q

/-! ## The three sums -/

/-- ‖x‖², summed along the row, kept as a column and repeated along the row. -/
theorem normRow_entry (v0 : Vec Ideal S512x1024 .f32) (h : S512x1024.Reduces [1] S512) (hφ : FKind.Formats .f32)
    (hacc : (0x00000000#32 : BitVec 32) = FKind.add.neutral .f32 hφ) (hc : S512.ShapeCasts S512x1) (hb : S512x1.Broadcasts S512x1024)
    (p : Fin 512) (n : Fin 1024) :
    broadcastTo S512x1024 (shapeCast S512x1 (multiReduction (F := Ideal) .add [1] S512 (mulf v0 v0) 0x00000000#32 h hφ hacc) hc) hb (ix2 p n)
      = dot (rowOf v0 p) (rowOf v0 p) :=
  Cert.Lib.RowOps.rowSum_keepdims_apply (mulf v0 v0) _ h hφ hacc hc hb p n

/-- ‖W n‖², summed along each codebook vector, laid out as one row and repeated down the block. -/
theorem normBook_entry (w : FVec Ideal S1024x1024 .f32) (h : S1024x1024.Reduces [1] S1024) (hφ : FKind.Formats .f32)
    (hacc : (0x00000000#32 : BitVec 32) = FKind.add.neutral .f32 hφ) (hc : S1024.ShapeCasts S1x1024) (hb : S1x1024.Broadcasts S512x1024)
    (p : Fin 512) (n : Fin 1024) :
    broadcastTo S512x1024 (shapeCast S1x1024 (multiReduction (F := Ideal) .add [1] S1024 (mulf w w) 0x00000000#32 h hφ hacc) hc) hb (ix2 p n)
      = dot (bookOf w n) (bookOf w n) :=
  (broadcastTo_1b_ab_apply _ hb p n).trans ((shapeCast_a_1a_apply _ hc 0 n).trans
    (Cert.Lib.RowOps.multiReduction_add_lanes (mulf w w) _ h hφ hacc n))

/-- ⟨x, W n⟩: the block times the transposed codebook. -/
theorem inner_entry (v0 : Vec Ideal S512x1024 .f32) (w : FVec Ideal S1024x1024 .f32) (hb : FTy.bits .bf16 < FTy.bits .f32)
    (ht : S1024x1024.Transposes [1, 0] S1024x1024) (p : Fin 512) (n : Fin 1024) :
    matmul dot_S512x1024_S1024x1024_S512x1024_1_0_0_1_n_n none (truncf .bf16 v0 hb)
        (transpose S1024x1024 [1, 0] (truncf .bf16 w hb) ht) (constant (F := Ideal) S512x1024 .f32 0x00000000#32) (ix2 p n)
      = dot (rowOf v0 p) (bookOf w n) := by
  refine (product_entry _ _ p n).trans (Finset.sum_congr rfl fun k _ => ?_)
  rw [transpose_ix2_apply]
  rfl

/-! ## The logits -/

/-- Entry (p, a, b) of the block's logits is the logit of row `p` against the codebook at cell (a, b). -/
theorem logits_entry (v0 : Vec Ideal S512x1024 .f32) (v1 : Vec Ideal S1024x1024 .f32) (p : Fin 512) (a b : Fin 32) :
    k0_pay4 (F := Ideal) v0 v1 (ix3 p a b) = grid (rowOf v0 p) (bookOf v1) a b := by
  unfold k0_pay4 k0_pay3 k0_pay2
  refine (shapeCast_apply _ _ (ix3 p a b) (ix2 p (cell a b)) (by
    rw [Shape.rowMajor_val_two, Shape.rowMajor_val_three]
    show p.val * 1024 + (a.val * 32 + b.val) = (p.val * 32 + a.val) * 32 + b.val
    omega)).trans ?_
  rw [shapeCast_self]
  have key : ∀ (A B C A' B' C' : EReal), A = A' → B = B' → C = C' →
      Ideal.div (Ideal.ofBits .f32 0x00000000#32 - ((A - Ideal.ofBits .f32 0x40000000#32 * B) + C)) (Ideal.ofBits .f32 0x3F800000#32)
        = Ideal.div (-((A' - two * B') + C')) one := by
    intro A B C A' B' C' hA hB hC
    subst hA hB hC
    rw [Ideal.ofBits_zero_f32, zero_sub]
    rfl
  exact key _ _ _ _ _ _ (normRow_entry v0 _ _ _ _ _ p (cell a b)) (inner_entry v0 v1 _ _ p (cell a b))
    (normBook_entry v1 _ _ _ _ _ p (cell a b))

end Cert.KernelIdeal.SomValue

end
-- ==== Proof.LibGridOps.lean ====
/-
  Operations on a stack of grids — an array [a, b, c] read as `a` grids of `b` rows and `c` columns — each read at an
  entry, at exact arithmetic.

  A softmax down the columns or along the rows of every grid of the stack reduces one of the two trailing axes, puts
  the reduced axis back as a unit axis and repeats the result along it. Here are the pieces, for any extents: the sum
  and the running maximum over the middle axis and over the last axis; the casts [a, c] → [a, 1, c], [a, b] → [a, b, 1]
  and [a, 1] → [a, 1, 1] that restore a unit axis; the broadcasts of [a, 1, c], [a, b, 1] and [a, 1, 1] to [a, b, c];
  the sum of an [a, b, 1] stack over its middle axis; and the cast between [a, b·c] and [a, b, c], which puts grid
  entry (q, r) at column q·c + r.
-/
import Idealize.ShloMosaic.Lib.ValueIdx
import Idealize.ShloMosaic.Lib.Pipeline.Value
import Idealize.ShloMosaic.PureOps.Ideal.Laws

noncomputable section

namespace Cert.Lib.GridOps

open Idealize.ShloMosaic Idealize.ShloMosaic.TcCoe Idealize.SL.Sem Idealize.ShloMosaic.ValueIdx

variable {α : Type}

/-! ## Restoring a unit axis -/

/-- `[a, c] → [a, 1, c]`: entry (p, u, r) is the operand's (p, r). -/
theorem shapeCast_ac_a1c_apply {a c : ℕ} (x : (⟨2, ![a, c]⟩ : Shape).Idx → α) (h : (⟨2, ![a, c]⟩ : Shape).ShapeCasts ⟨3, ![a, 1, c]⟩)
    (p : Fin a) (u : Fin 1) (r : Fin c) : shapeCast ⟨3, ![a, 1, c]⟩ x h (ix3 p u r) = x (ix2 p r) :=
  shapeCast_apply x h _ _ (by
    have hu : u.val = 0 := by omega
    rw [Shape.rowMajor_val_three, Shape.rowMajor_val_two]
    show p.val * c + r.val = (p.val * 1 + u.val) * c + r.val
    rw [hu, Nat.mul_one, Nat.add_zero])

/-- `[a, b] → [a, b, 1]`: entry (p, q, u) is the operand's (p, q). -/
theorem shapeCast_ab_ab1_apply {a b : ℕ} (x : (⟨2, ![a, b]⟩ : Shape).Idx → α) (h : (⟨2, ![a, b]⟩ : Shape).ShapeCasts ⟨3, ![a, b, 1]⟩)
    (p : Fin a) (q : Fin b) (u : Fin 1) : shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- `[a, 1] → [a, 1, 1]`: entry (p, u, u') is the operand's (p, 0). -/
theorem shapeCast_a1_a11_apply {a : ℕ} (x : (⟨2, ![a, 1]⟩ : Shape).Idx → α) (h : (⟨2, ![a, 1]⟩ : Shape).ShapeCasts ⟨3, ![a, 1, 1]⟩)
    (p : Fin a) (u u' : Fin 1) : shapeCast ⟨3, ![a, 1, 1]⟩ x h (ix3 p u u') = x (ix2 p (0 : Fin 1)) :=
  shapeCast_apply x h _ _ (by
    have hu : u.val = 0 := by omega
    have hu' : u'.val = 0 := by omega
    rw [Shape.rowMajor_val_three, Shape.rowMajor_val_two]
    show p.val * 1 + 0 = (p.val * 1 + u.val) * 1 + u'.val
    rw [hu, hu', Nat.mul_one, Nat.add_zero, Nat.mul_one, Nat.add_zero])

/-! ## Repeating along a restored axis -/

/-- `[a, 1, c] → [a, b, c]`: entry (p, q, r) is the operand's (p, 0, r). -/
theorem broadcastTo_a1c_abc_apply {a b c : ℕ} (v : (⟨3, ![a, 1, c]⟩ : Shape).Idx → α) (h : (⟨3, ![a, 1, c]⟩ : Shape).Broadcasts ⟨3, ![a, b, c]⟩)
    (p : Fin a) (q : Fin b) (r : Fin c) : broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- `[a, b, 1] → [a, b, c]`: entry (p, q, r) is the operand's (p, q, 0). -/
theorem broadcastTo_ab1_abc_apply {a b c : ℕ} (v : (⟨3, ![a, b, 1]⟩ : Shape).Idx → α) (h : (⟨3, ![a, b, 1]⟩ : Shape).Broadcasts ⟨3, ![a, b, c]⟩)
    (p : Fin a) (q : Fin b) (r : Fin c) : broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- `[a, 1, 1] → [a, b, c]`: entry (p, q, r) is the operand's (p, 0, 0). -/
theorem broadcastTo_a11_abc_apply {a b c : ℕ} (v : (⟨3, ![a, 1, 1]⟩ : Shape).Idx → α) (h : (⟨3, ![a, 1, 1]⟩ : Shape).Broadcasts ⟨3, ![a, b, c]⟩)
    (p : Fin a) (q : Fin b) (r : Fin c) : broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

/-! ## Reductions over the middle axis and over the last axis -/

/-- The sum over the middle axis at (p, r): the sum over `q` of the entries (p, q, r). -/
theorem sum_mid_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ) (p : Fin a) (r : Fin c) :
    multiReduction (F := Ideal) .add [1] ⟨2, ![a, c]⟩ src acc h hφ hacc (ix2 p r) = ∑ q : Fin b, src (ix3 p q r) := by
  refine (Ideal.multiReduction_add_single src acc h hφ hacc (ix2 p r)).trans ?_
  refine Finset.sum_congr rfl fun k _ => congrArg src ?_
  funext d; apply Fin.ext
  match d with
  | ⟨0, _⟩ => rfl
  | ⟨1, _⟩ => rfl
  | ⟨2, _⟩ => rfl

/-- The sum over the last axis at (p, q): the sum over `r` of the entries (p, q, r). -/
theorem sum_last_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ) (p : Fin a) (q : Fin b) :
    multiReduction (F := Ideal) .add [2] ⟨2, ![a, b]⟩ src acc h hφ hacc (ix2 p q) = ∑ r : Fin c, src (ix3 p q r) := by
  refine (Ideal.multiReduction_add_single src acc h hφ hacc (ix2 p q)).trans ?_
  refine Finset.sum_congr rfl fun k _ => congrArg src ?_
  funext d; apply Fin.ext
  match d with
  | ⟨0, _⟩ => rfl
  | ⟨1, _⟩ => rfl
  | ⟨2, _⟩ => rfl

/-- The running maximum over the middle axis at (p, r), started from the accumulator's value. -/
theorem max_mid_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.maximumf.neutral φ hφ) (p : Fin a) (r : Fin c) :
    multiReduction (F := Ideal) .maximumf [1] ⟨2, ![a, c]⟩ src acc h hφ hacc (ix2 p r)
      = (Finset.univ : Finset (Fin b)).fold max (Ideal.ofBits φ acc) fun q => src (ix3 p q r) := by
  refine (Ideal.multiReduction_maximumf_single src acc h hφ hacc (ix2 p r)).trans ?_
  refine congrArg (fun f => (Finset.univ : Finset (Fin b)).fold max (Ideal.ofBits φ acc) f) (funext fun k => congrArg src ?_)
  funext d; apply Fin.ext
  match d with
  | ⟨0, _⟩ => rfl
  | ⟨1, _⟩ => rfl
  | ⟨2, _⟩ => rfl

/-- The running maximum over the last axis at (p, q), started from the accumulator's value. -/
theorem max_last_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ) (p : Fin a) (q : Fin b) :
    multiReduction (F := Ideal) .maximumf [2] ⟨2, ![a, b]⟩ src acc h hφ hacc (ix2 p q)
      = (Finset.univ : Finset (Fin c)).fold max (Ideal.ofBits φ acc) fun r => src (ix3 p q r) := by
  refine (Ideal.multiReduction_maximumf_single src acc h hφ hacc (ix2 p q)).trans ?_
  refine congrArg (fun f => (Finset.univ : Finset (Fin c)).fold max (Ideal.ofBits φ acc) f) (funext fun k => congrArg src ?_)
  funext d; apply Fin.ext
  match d with
  | ⟨0, _⟩ => rfl
  | ⟨1, _⟩ => rfl
  | ⟨2, _⟩ => rfl

/-- The sum of an `[a, b, 1]` stack over its middle axis, at (p, u): the sum over `q` of the entries (p, q, 0). -/
theorem sum_mid_unit_apply {a b : ℕ} {φ : FTy} (src : FVec Ideal ⟨3, ![a, b, 1]⟩ φ) (acc : BitVec φ.bits)
    (h : (⟨3, ![a, b, 1]⟩ : Shape).Reduces [1] ⟨2, ![a, 1]⟩) (hφ : FKind.Formats φ) (hacc : acc = FKind.add.neutral φ hφ) (p : Fin a) :
    multiReduction (F := Ideal) .add [1] ⟨2, ![a, 1]⟩ src acc h hφ hacc (ix2 p (0 : Fin 1)) = ∑ q : Fin b, src (ix3 p q (0 : Fin 1)) :=
  sum_mid_apply src acc h hφ hacc p 0

/-! ## Columns as a grid -/

/-- `[a, n] → [a, b, c]` with `n = b·c`: entry (p, q, r) is the operand's column `q·c + r` of row `p`. -/
theorem shapeCast_an_abc_apply {a n b c : ℕ} (x : (⟨2, ![a, n]⟩ : Shape).Idx → α) (h : (⟨2, ![a, n]⟩ : Shape).ShapeCasts ⟨3, ![a, b, c]⟩)
    (p : Fin a) (q : Fin b) (r : Fin c) (k : Fin n) (hk : k.val = q.val * c + r.val) (hn : n = b * c) :
    shapeCast ⟨3, ![a, b, c]⟩ x h (ix3 p q r) = x (ix2 p k) :=
  shapeCast_apply x h _ _ (by
    rw [Shape.rowMajor_val_three, Shape.rowMajor_val_two]
    show p.val * n + k.val = (p.val * b + q.val) * c + r.val
    rw [hk, hn, Nat.add_mul, Nat.mul_assoc, Nat.add_assoc])

/-- `[a, b, c] → [a, n]` with `n = b·c`: column `k = q·c + r` of row `p` is the operand's entry (p, q, r). -/
theorem shapeCast_abc_an_apply {a n b c : ℕ} (x : (⟨3, ![a, b, c]⟩ : Shape).Idx → α) (h : (⟨3, ![a, b, c]⟩ : Shape).ShapeCasts ⟨2, ![a, n]⟩)
    (p : Fin a) (q : Fin b) (r : Fin c) (k : Fin n) (hk : k.val = q.val * c + r.val) (hn : n = b * c) :
    shapeCast ⟨2, ![a, n]⟩ x h (ix2 p k) = x (ix3 p q r) :=
  shapeCast_apply x h _ _ (by
    rw [Shape.rowMajor_val_three, Shape.rowMajor_val_two]
    show (p.val * b + q.val) * c + r.val = p.val * n + k.val
    rw [hk, hn, Nat.add_mul, Nat.mul_assoc, Nat.add_assoc])

end Cert.Lib.GridOps

end
-- ==== Proof.KerSoft.lean ====
/-
  The two softmaxes the kernel takes over the 32 × 32 map of one row's logits, read at an entry.

  Down a column: the running maximum over the map's rows (started from −∞, then capped below by −∞), put back as
  a unit axis and repeated down the column; the exponential of the logit minus that maximum; the column's sum of
  these, put back and repeated the same way; their quotient. Along a row the same with the two axes exchanged.
  Stated for any stack `L` of 512 maps whose map `p` is a grid `G`: entry (p, a, b) of each intermediate is the
  specification's function of `G` at (a, b).
-/
import proofs.«101707_j67894843015429_1_alg».proof.Proof.KerLogit
import proofs.«101707_j67894843015429_1_alg».proof.Proof.LibGridOps

noncomputable section

namespace Cert.KernelIdeal.SomValue

open Cert.KernelIdeal Cert.KernelIdeal.Gen Idealize.ShloMosaic Idealize.ShloMosaic.TcCoe Idealize.SL.Sem
open Idealize.ShloMosaic.ValueIdx Cert.Som Cert.Lib.GridOps

section
variable (L : FVec Ideal S512x32x32 .f32) (G : Grid) (p : Fin 512) (hL : ∀ a b, L (ix3 p a b) = G a b)
variable (h1 : S512x32x32.Reduces [1] S512x32) (h2 : S512x32x32.Reduces [2] S512x32) (hφ : FKind.Formats .f32)
variable (hmax : (0xFF800000#32 : BitVec 32) = FKind.maximumf.neutral .f32 hφ) (hadd : (0x00000000#32 : BitVec 32) = FKind.add.neutral .f32 hφ)
variable (hc1 : S512x32.ShapeCasts S512x1x32) (hb1 : S512x1x32.Broadcasts S512x32x32)
variable (hc2 : S512x32.ShapeCasts S512x32x1) (hb2 : S512x32x1.Broadcasts S512x32x32)

include hL

/-! ## Down the columns -/

theorem colMax_entry (b : Fin 32) :
    maximumf (broadcast S512x32 (Scalar.ofBits (F := Ideal) .f32 0xFF800000#32))
        (multiReduction (F := Ideal) .maximumf [1] S512x32 L 0xFF800000#32 h1 hφ hmax) (ix2 p b) = colMax G b :=
  congrArg (max ninf) ((max_mid_apply L _ h1 hφ hmax p b).trans
    (congrArg (fun f => (Finset.univ : Finset (Fin 32)).fold max ninf f) (funext fun a => hL a b)))

theorem colExp_entry (a b : Fin 32) :
    exp (subf L (broadcastTo S512x32x32 (shapeCast S512x1x32 (maximumf (broadcast S512x32 (Scalar.ofBits (F := Ideal) .f32 0xFF800000#32))
        (multiReduction (F := Ideal) .maximumf [1] S512x32 L 0xFF800000#32 h1 hφ hmax)) hc1) hb1)) (ix3 p a b) = colExp G a b :=
  congrArg Ideal.exp (congrArg₂ (fun u v : EReal => u - v) (hL a b)
    ((broadcastTo_a1c_abc_apply _ hb1 p a b).trans ((shapeCast_ac_a1c_apply _ hc1 p 0 b).trans (colMax_entry L G p hL h1 hφ hmax b))))

theorem colSoft_entry (a b : Fin 32) :
    divf (exp (subf L (broadcastTo S512x32x32 (shapeCast S512x1x32 (maximumf (broadcast S512x32 (Scalar.ofBits (F := Ideal) .f32 0xFF800000#32))
          (multiReduction (F := Ideal) .maximumf [1] S512x32 L 0xFF800000#32 h1 hφ hmax)) hc1) hb1)))
      (broadcastTo S512x32x32 (shapeCast S512x1x32 (multiReduction (F := Ideal) .add [1] S512x32
          (exp (subf L (broadcastTo S512x32x32 (shapeCast S512x1x32 (maximumf (broadcast S512x32 (Scalar.ofBits (F := Ideal) .f32 0xFF800000#32))
            (multiReduction (F := Ideal) .maximumf [1] S512x32 L 0xFF800000#32 h1 hφ hmax)) hc1) hb1)))
          0x00000000#32 h1 hφ hadd) hc1) hb1) (ix3 p a b) = colSoft G a b :=
  congrArg₂ Ideal.div (colExp_entry L G p hL h1 hφ hmax hc1 hb1 a b)
    ((broadcastTo_a1c_abc_apply _ hb1 p a b).trans ((shapeCast_ac_a1c_apply _ hc1 p 0 b).trans
      ((sum_mid_apply _ _ h1 hφ hadd p b).trans (Finset.sum_congr rfl fun a' _ => colExp_entry L G p hL h1 hφ hmax hc1 hb1 a' b))))

/-! ## Along the rows -/

theorem rowMax_entry (a : Fin 32) :
    maximumf (broadcast S512x32 (Scalar.ofBits (F := Ideal) .f32 0xFF800000#32))
        (multiReduction (F := Ideal) .maximumf [2] S512x32 L 0xFF800000#32 h2 hφ hmax) (ix2 p a) = rowMax G a :=
  congrArg (max ninf) ((max_last_apply L _ h2 hφ hmax p a).trans
    (congrArg (fun f => (Finset.univ : Finset (Fin 32)).fold max ninf f) (funext fun b => hL a b)))

theorem rowExp_entry (a b : Fin 32) :
    exp (subf L (broadcastTo S512x32x32 (shapeCast S512x32x1 (maximumf (broadcast S512x32 (Scalar.ofBits (F := Ideal) .f32 0xFF800000#32))
        (multiReduction (F := Ideal) .maximumf [2] S512x32 L 0xFF800000#32 h2 hφ hmax)) hc2) hb2)) (ix3 p a b) = rowExp G a b :=
  congrArg Ideal.exp (congrArg₂ (fun u v : EReal => u - v) (hL a b)
    ((broadcastTo_ab1_abc_apply _ hb2 p a b).trans ((shapeCast_ab_ab1_apply _ hc2 p a 0).trans (rowMax_entry L G p hL h2 hφ hmax a))))

end

/-! ## The kernel's three intermediate values -/

/-- The column softmax of the block's logits. -/
theorem colSoft_block (v0 : Vec Ideal S512x1024 .f32) (v1 : Vec Ideal S1024x1024 .f32) (p : Fin 512) (a b : Fin 32) :
    k0_pay5 (F := Ideal) v0 v1 (ix3 p a b) = colSoft (grid (rowOf v0 p) (bookOf v1)) a b := by
  unfold k0_pay5
  exact colSoft_entry (k0_pay4 (F := Ideal) v0 v1) _ p (logits_entry v0 v1 p) _ _ _ _ _ _ a b

/-- The row softmax's shifted exponentials. -/
theorem rowExp_block (v0 : Vec Ideal S512x1024 .f32) (v1 : Vec Ideal S1024x1024 .f32) (p : Fin 512) (a b : Fin 32) :
    k0_pay6 (F := Ideal) v0 v1 (ix3 p a b) = rowExp (grid (rowOf v0 p) (bookOf v1)) a b := by
  unfold k0_pay6
  exact rowExp_entry (k0_pay4 (F := Ideal) v0 v1) _ p (logits_entry v0 v1 p) _ _ _ _ _ a b

/-- Their sums along each row. -/
theorem rowSum_block (v0 : Vec Ideal S512x1024 .f32) (v1 : Vec Ideal S1024x1024 .f32) (p : Fin 512) (a : Fin 32) :
    k0_pay7 (F := Ideal) v0 v1 (ix2 p a) = ∑ b : Fin 32, rowExp (grid (rowOf v0 p) (bookOf v1)) a b := by
  unfold k0_pay7
  exact (sum_last_apply _ _ _ _ _ p a).trans (Finset.sum_congr rfl fun b _ => rowExp_block v0 v1 p a b)

end Cert.KernelIdeal.SomValue

end
-- ==== Proof.KerOut.lean ====
/-
  The block's output row, read at an entry.

  From the column softmax, the row softmax's exponentials and their row sums of one row's map, the kernel forms the row
  softmax (a quotient by the row sum put back as a unit axis and repeated along the row), the product of the two
  softmaxes, its total mass (summed along the rows, then down the column of row sums) plus the small constant, the
  normalised weights, and finally — the 32 × 32 map re-laid as 1024 columns — their product with the codebook.
  Entry (p, d) of the result is the specification's output row of input row `p` at `d`.
-/
import proofs.«101707_j67894843015429_1_alg».proof.Proof.KerSoft

noncomputable section

namespace Cert.KernelIdeal.SomValue

open Cert.KernelIdeal Cert.KernelIdeal.Gen Idealize.ShloMosaic Idealize.ShloMosaic.TcCoe Idealize.SL.Sem
open Idealize.ShloMosaic.ValueIdx Cert.Som Cert.Lib.GridOps

section
variable (G : Grid) (p : Fin 512)
variable (h2 : S512x32x32.Reduces [2] S512x32) (h3 : S512x32x1.Reduces [1] S512x1) (hφ : FKind.Formats .f32)
variable (hadd : (0x00000000#32 : BitVec 32) = FKind.add.neutral .f32 hφ)
variable (hc2 : S512x32.ShapeCasts S512x32x1) (hb2 : S512x32x1.Broadcasts S512x32x32)
variable (hc3 : S512x1.ShapeCasts S512x1x1) (hb3 : S512x1x1.Broadcasts S512x32x32)
variable (hc4 : S512x32x32.ShapeCasts S512x1024)

/-- The product of the two softmaxes. -/
theorem both_entry (A E : FVec Ideal S512x32x32 .f32) (S : FVec Ideal S512x32 .f32)
    (hA : ∀ a b, A (ix3 p a b) = colSoft G a b) (hE : ∀ a b, E (ix3 p a b) = rowExp G a b)
    (hS : ∀ a, S (ix2 p a) = ∑ b : Fin 32, rowExp G a b) (a b : Fin 32) :
    mulf A (divf E (broadcastTo S512x32x32 (shapeCast S512x32x1 S hc2) hb2)) (ix3 p a b) = both G a b :=
  congrArg₂ (fun u v : EReal => u * v) (hA a b)
    (congrArg₂ Ideal.div (hE a b)
      ((broadcastTo_ab1_abc_apply _ hb2 p a b).trans ((shapeCast_ab_ab1_apply _ hc2 p a 0).trans (hS a))))

/-- Its total mass plus the small constant. -/
theorem mass_entry (B : FVec Ideal S512x32x32 .f32) (hB : ∀ a b, B (ix3 p a b) = both G a b) (u u' : Fin 1) :
    addf (shapeCast S512x1x1 (multiReduction (F := Ideal) .add [1] S512x1
          (shapeCast S512x32x1 (multiReduction (F := Ideal) .add [2] S512x32 B 0x00000000#32 h2 hφ hadd) hc2) 0x00000000#32 h3 hφ hadd) hc3)
        (broadcast S512x1x1 (Scalar.ofBits (F := Ideal) .f32 0x322BCC77#32)) (ix3 p u u') = mass G :=
  congrArg (fun s : EReal => s + eps)
    ((shapeCast_a1_a11_apply _ hc3 p u u').trans ((sum_mid_unit_apply _ _ h3 hφ hadd p).trans
      (Finset.sum_congr rfl fun a _ => (shapeCast_ab_ab1_apply _ hc2 p a 0).trans
        ((sum_last_apply B _ h2 hφ hadd p a).trans (Finset.sum_congr rfl fun b _ => hB a b)))))

/-- The normalised weights. -/
theorem weight_entry (B : FVec Ideal S512x32x32 .f32) (hB : ∀ a b, B (ix3 p a b) = both G a b)
    (M : FVec Ideal S512x1x1 .f32) (hM : M (ix3 p (0 : Fin 1) (0 : Fin 1)) = mass G) (a b : Fin 32) :
    divf B (broadcastTo S512x32x32 M hb3) (ix3 p a b) = weight G a b :=
  congrArg₂ Ideal.div (hB a b) ((broadcastTo_a11_abc_apply _ hb3 p a b).trans hM)

/-- The weighted sum of the codebook vectors. -/
theorem out_entry (Wt : FVec Ideal S512x32x32 .f32) (hWt : ∀ a b, Wt (ix3 p a b) = weight G a b)
    (W4 : FVec Ideal S1024x1024 .bf16) (Wb : Book) (hW : ∀ n d, W4 (ix2 n d) = Wb n d) (hbits : FTy.bits .bf16 < FTy.bits .f32) (d : Fin 1024) :
    matmul dot_S512x1024_S1024x1024_S512x1024_1_0_0_1_n_n none (truncf .bf16 (shapeCast S512x1024 Wt hc4) hbits) W4
        (constant (F := Ideal) S512x1024 .f32 0x00000000#32) (ix2 p d)
      = ∑ n : Fin 1024, weight G (cellRow n) (cellCol n) * Wb n d := by
  refine (product_entry _ _ p d).trans (Finset.sum_congr rfl fun n _ => ?_)
  refine congrArg₂ (fun u v : EReal => u * v) ?_ (hW n d)
  exact (shapeCast_abc_an_apply Wt hc4 p (cellRow n) (cellCol n) n
    (by show n.val = n.val / 32 * 32 + n.val % 32; omega) rfl).trans (hWt _ _)

end

/-- Entry (p, d) of what the kernel stores for a block: the output row of the block's row `p` against the codebook. -/
theorem stored_entry (v0 : Vec Ideal S512x1024 .f32) (v1 : Vec Ideal S1024x1024 .f32) (p : Fin 512) (d : Fin 1024) :
    k0_pay1 (F := Ideal) (k0_pay3 v1) (k0_pay5 v0 v1) (k0_pay6 v0 v1) (k0_pay7 v0 v1) (ix2 p d)
      = rowOut (rowOf v0 p) (bookOf v1) d := by
  unfold k0_pay1
  have hB := both_entry (grid (rowOf v0 p) (bookOf v1)) p shapeCasts_S512x32_S512x32x1 broadcasts_S512x32x1_S512x32x32
    (k0_pay5 (F := Ideal) v0 v1) (k0_pay6 (F := Ideal) v0 v1) (k0_pay7 (F := Ideal) v0 v1)
    (colSoft_block v0 v1 p) (rowExp_block v0 v1 p) (rowSum_block v0 v1 p)
  refine out_entry (grid (rowOf v0 p) (bookOf v1)) p _ _ (fun a b => ?_) _ (bookOf v1) (fun n d => ?_) _ d
  · exact weight_entry _ p _ _ hB _ (mass_entry _ p _ _ _ _ _ _ _ hB 0 0) a b
  · unfold k0_pay3 k0_pay2
    rw [shapeCast_self]
    rfl

end Cert.KernelIdeal.SomValue

end
-- ==== Proof.KerArray.lean ====
/-
  From blocks to the whole array: after the kernel's run the result array is the layer of the two arguments.

  The grid has 32 points; at point `t` the input window holds rows 512·t … 512·t + 511 of the input, the codebook
  window holds the whole codebook (the weight array re-laid as 1024 × 1024 before the call), and the output window's
  block is written back to the same rows of the result. What is written back is, entry by entry, the layer's value
  at the corresponding row; the 32 blocks tile the 16384 rows, so the whole result array is the layer.
-/
import proofs.«101707_j67894843015429_1_alg».proof.Proof.Gen.KernelIdeal.Value
import proofs.«101707_j67894843015429_1_alg».proof.Proof.KerOut
import Idealize.ShloMosaic.Lib.StableHlo.Run

set_option maxRecDepth 16384

noncomputable section

namespace Cert.KernelIdeal.SomValue

open Cert.KernelIdeal Cert.KernelIdeal.Gen Idealize.ShloMosaic Idealize.ShloMosaic.TcCoe Idealize.SL.Sem
open Idealize.ShloMosaic.ValueIdx Cert.Som Idealize.ShloMosaic.StableHlo
open Idealize.ShloMosaic.Pipeline (Dat)

/-- One block against the whole arrays: if row y₀ of the input block is row i₀ of `X` and the codebook block is
    the codebook of `W3`, the stored block at `y` is the layer at row i₀, column y₁. -/
theorem block_entry (x0 : Vec Ideal S512x1024 .f32) (x1 : Vec Ideal S1024x1024 .f32)
    (X : (⟨2, ![16384, 1024]⟩ : Shape).Idx → EReal) (W3 : (⟨3, ![32, 32, 1024]⟩ : Shape).Idx → EReal)
    (y : S512x1024.Idx) (i : (⟨2, ![16384, 1024]⟩ : Shape).Idx)
    (hrow : ∀ k : Fin 1024, x0 (ix2 (y 0) k) = X (ix2 (i 0) k))
    (hbook : ∀ n k : Fin 1024, x1 (ix2 n k) = book W3 n k)
    (hi1 : (i 1).val = (y 1).val) :
    k0_pay1 (F := Ideal) (k0_pay3 x1) (k0_pay5 x0 x1) (k0_pay6 x0 x1) (k0_pay7 x0 x1) y = layer X W3 i := by
  obtain ⟨p, d, rfl⟩ : ∃ (p : Fin 512) (d : Fin 1024), y = ix2 p d := ⟨y 0, y 1, eq_ix2 y⟩
  refine (stored_entry x0 x1 p d).trans ?_
  unfold layer
  have e1 : rowOf x0 p = fun k => X (ix2 (i 0) k) := funext fun k => hrow k
  have e2 : bookOf x1 = book W3 := funext fun n => funext fun k => hbook n k
  have e3 : d = i 1 := Fin.ext hi1.symm
  rw [e1, e2, e3]

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the input and output windows sit at block row `t`, the codebook window at
    its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The codebook array as the call finds it: the weight array re-laid as 1024 × 1024. -/
theorem book_array (c : Dev nD) :
    (V m c main_v0 : S1024x1024.Idx → EReal)
      = shapeCast S1024x1024 (m ((c : Thread nD τ).loc main_arg1) : S32x32x1024.Idx → EReal) shapeCasts_S32x32x1024_S1024x1024 := by
  dsimp only [Gen.V, Gen.hostOps0]
  after_results
  rfl

/-- The input window's block at point `t` is rows 512·t … of the input. -/
theorem in_block (c : Dev nD) (t : Fin cfg0.N) (y : S512x1024.Idx) (i : S16384x1024.Idx)
    (hi0 : (i 0).val = t.val * 512 + (y 0).val) (hi1 : (i 1).val = (y 1).val) :
    (iblk m c 0 t : Vec Ideal S512x1024 .f32) y = (m ((c : Thread nD τ).loc main_arg0) : S16384x1024.Idx → EReal) i := by
  obtain ⟨e0, e1, -, -, -, -⟩ := idx_facts t
  unfold iblk
  rw [View.read_apply]
  show V m c main_arg0 _ = _
  rw [V_main_arg0]
  congr 1
  funext a
  apply Fin.ext
  match a with
  | ⟨0, _⟩ => show win0_0.index t 0 * 512 + 1 * (y 0).val = (i 0).val; rw [e0, hi0]; omega
  | ⟨1, _⟩ => show win0_0.index t 1 * 1024 + 1 * (y 1).val = (i 1).val; rw [e1, hi1]; omega

/-- The codebook window's block at every point is the codebook of the weight array. -/
theorem book_block (c : Dev nD) (t : Fin cfg0.N) (n k : Fin 1024) :
    (iblk m c 1 t : Vec Ideal S1024x1024 .f32) (ix2 n k) = book (m ((c : Thread nD τ).loc main_arg1) : S32x32x1024.Idx → EReal) n k := by
  obtain ⟨-, -, e2, e3, -, -⟩ := idx_facts t
  unfold iblk
  rw [View.read_apply]
  show V m c main_v0 _ = _
  rw [book_array]
  unfold book
  refine shapeCast_apply _ _ _ _ ?_
  show (S32x32x1024.rowMajor (ix3 (cellRow n) (cellCol n) k)).val = (S1024x1024.rowMajor (((cfg0.win 1).blk t).view.emb (ix2 n k))).val
  rw [Shape.rowMajor_val_three, Shape.rowMajor_val_two]
  show (n.val / 32 * 32 + n.val % 32) * 1024 + k.val = (win0_1.index t 0 * 1024 + 1 * n.val) * 1024 + (win0_1.index t 1 * 1024 + 1 * k.val)
  rw [e2, e3]
  omega

/-- What point `t` writes back is block `t` of the layer of the two arguments. -/
theorem flushed_eq (c : Dev nD) (t : Fin cfg0.N) :
    (dats m 0 c).flushed 2 t = ((cfg0.win 2).blk t).view.read (Elt Ideal)
      (layer (m ((c : Thread nD τ).loc main_arg0)) (m ((c : Thread nD τ).loc main_arg1))) := by
  rw [Cert.KernelIdeal.Value.flushed2]
  unfold out0_2
  rw [View.canon_unit_zero hz]
  simp only [View.ld_unit_zero (S := S512x1024) hz, View.ld_unit_zero (S := S1024x1024) hz]
  obtain ⟨-, -, -, -, e4, e5⟩ := idx_facts t
  funext j
  show k0_pay1 (F := Ideal) (k0_pay3 (iblk m c 1 t)) (k0_pay5 (iblk m c 0 t) (iblk m c 1 t)) (k0_pay6 (iblk m c 0 t) (iblk m c 1 t))
      (k0_pay7 (iblk m c 0 t) (iblk m c 1 t)) j
    = layer (m ((c : Thread nD τ).loc main_arg0)) (m ((c : Thread nD τ).loc main_arg1)) (((cfg0.win 2).blk t).view.emb j)
  have h0 : ((((cfg0.win 2).blk t).view.emb j) 0).val = t.val * 512 + (j 0).val := by
    show win0_2.index t 0 * 512 + 1 * (j 0).val = _
    rw [e4]; omega
  have h1 : ((((cfg0.win 2).blk t).view.emb j) 1).val = (j 1).val := by
    show win0_2.index t 1 * 1024 + 1 * (j 1).val = _
    rw [e5]; omega
  refine block_entry _ _ _ _ j _ (fun k => ?_) (fun n k => book_block m c t n k) h1
  exact in_block m c t _ _ h0 rfl

/-- An index of the result array is in point `t`'s block iff each coordinate is in the block's range on its axis. -/
theorem mem_blk (t : Fin cfg0.N) (i : S16384x1024.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v1).slice (win0_2.rect t)).set ↔ _
  rw [View.set_slice_whole, Rect.mem_set_unit]
  exact Iff.rfl

/-- Every index of the result array lies in the block of the point that handles its row: row r is in block r / 512. -/
theorem covered (i : S16384x1024.Idx) : ∃ t : Fin cfg0.N, (cfg0.win 2).flush t = true ∧ i ∈ ((cfg0.win 2).blk t).view.set := by
  have hi0 : (i 0).val < 16384 := (i 0).isLt
  have hi1 : (i 1).val < 1024 := (i 1).isLt
  have hN : cfg0.N = 32 := N_0
  have ht : (i 0).val / 512 < cfg0.N := by rw [hN]; omega
  obtain ⟨-, -, -, -, e4, e5⟩ := idx_facts ⟨(i 0).val / 512, ht⟩
  refine ⟨⟨(i 0).val / 512, ht⟩, flush0_2 _, ?_⟩
  rw [mem_blk]
  intro a
  match a with
  | ⟨0, _⟩ =>
    show win0_2.index ⟨(i 0).val / 512, ht⟩ (0 : Fin 2) * 512 ≤ (i 0).val ∧ (i 0).val < win0_2.index ⟨(i 0).val / 512, ht⟩ (0 : Fin 2) * 512 + 512
    rw [e4]; show (i 0).val / 512 * 512 ≤ (i 0).val ∧ (i 0).val < (i 0).val / 512 * 512 + 512; omega
  | ⟨1, _⟩ =>
    show win0_2.index ⟨(i 0).val / 512, ht⟩ (1 : Fin 2) * 1024 ≤ (i 1).val ∧ (i 1).val < win0_2.index ⟨(i 0).val / 512, ht⟩ (1 : Fin 2) * 1024 + 1024
    rw [e5]; omega

/-- The 32 blocks tile the result array, so after the run it is the layer of the two arguments. -/
theorem final (c : Dev nD) :
    (dats m 0 c).arrAt 2 cfg0.N = layer (m ((c : Thread nD τ).loc main_arg0)) (m ((c : Thread nD τ).loc main_arg1)) :=
  (dats m 0 c).arrAt_eq_of_cover 2 _ (fun t _ => flushed_eq m c t) fun i => covered i

/-- The kernel's run, read: the result array ends at the layer of the two arguments, which end unchanged. -/
theorem run : θ_run defs (onTc (τ := τ) (main (F := Ideal))) ⟨m, fun _ => 0, ρ⟩ fun r => ∀ c : Dev nD,
      r.2.mem ((c : Thread nD τ).loc main_v1) = layer (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.SomValue

end
-- ==== Proof.RefLogit.lean ====
/-
  The reference's logits.  Entry (r, n) of the reference's distance array is minus the squared distance between
  input row r and codebook vector n, over the temperature: the squared norm of the row, minus twice the inner
  product, plus the squared norm of the codebook vector, each read off the reference's operations one at a time.
  The reshaped weight array is the codebook matrix: its entry (n, k) is the weight array at cell (n / 32, n % 32),
  coordinate k.
-/
import proofs.«101707_j67894843015429_1_alg».proof.Proof.Gen.ReferenceIdeal.Read
import proofs.«101707_j67894843015429_1_alg».proof.Proof.Spec

noncomputable section

namespace Cert.ReferenceIdeal.RefValue

open Cert.ReferenceIdeal Cert.ReferenceIdeal.Read Idealize.ShloMosaic Idealize.ShloMosaic.ValueIdx Cert.Som

/-- The two argument arrays' types. -/
abbrev X0 := (⟨S16384x1024, .f32⟩ : BufTy).Contents (Elt Ideal)
abbrev X1 := (⟨S32x32x1024, .f32⟩ : BufTy).Contents (Elt Ideal)

/-- Row `r` of the input. -/
def inRow (x0 : X0) (r : Fin 16384) : Row := fun k => x0 (ix2 r k)

/-- The reshaped weights are the codebook matrix. -/
theorem book_at (x1 : X1) (n k : Fin 1024) : val_main_v0 (F := Ideal) x1 (ix2 n k) = book x1 n k := by
  rw [val_main_v0_apply]
  unfold book
  refine congrArg x1 (funext fun a => Fin.ext ?_)
  have hn := n.isLt
  have hk := k.isLt
  match a with
  | ⟨0, _⟩ => show (n.val * 1024 + k.val) / 32768 = n.val / 32; omega
  | ⟨1, _⟩ => show (n.val * 1024 + k.val) / 1024 % 32 = n.val % 32; omega
  | ⟨2, _⟩ => show (n.val * 1024 + k.val) % 1024 = k.val; omega

/-- The squared norm of input row `r`. -/
theorem rowSq_at (x0 : X0) (r : Fin 16384) :
    val_main_v2 (F := Ideal) x0 (ix1 r) = dot (inRow x0 r) (inRow x0 r) := by
  rw [val_main_v2_apply, val_main_cst_apply, Ideal.ofBits_def, Ideal.ofBits_zero_f32, zero_add]
  unfold dot inRow
  refine Finset.sum_congr rfl fun k _ => ?_
  rw [val_main_v1_apply, Ideal.mulf_def]
  have e : idx_main_v2 (ix1 r) k = ix2 r k := funext fun a => by
    match a with | ⟨0, _⟩ => rfl | ⟨1, _⟩ => rfl
  rw [e]

/-- The squared norm of codebook vector `n`. -/
theorem bookSq_at (x1 : X1) (n : Fin 1024) :
    val_main_v5 (F := Ideal) x1 (ix1 n) = dot (book x1 n) (book x1 n) := by
  rw [val_main_v5_apply, val_main_cst_0_apply, Ideal.ofBits_def, Ideal.ofBits_zero_f32, zero_add]
  unfold dot
  refine Finset.sum_congr rfl fun k _ => ?_
  rw [val_main_v4_apply, Ideal.mulf_def]
  have e : idx_main_v5 (ix1 n) k = ix2 n k := funext fun a => by
    match a with | ⟨0, _⟩ => rfl | ⟨1, _⟩ => rfl
  rw [e, book_at]

/-- The inner product of input row `r` and codebook vector `n`. -/
theorem cross_at (x0 : X0) (x1 : X1) (r : Fin 16384) (n : Fin 1024) :
    val_main_v8 (F := Ideal) x0 x1 (ix2 r n) = dot (inRow x0 r) (book x1 n) := by
  rw [val_main_v8_apply]
  unfold dot inRow
  refine Finset.sum_congr rfl fun k _ => ?_
  have el : lidx_main_v8 (ix2 r n) k = ix2 r k := funext fun a => by
    match a with | ⟨0, _⟩ => rfl | ⟨1, _⟩ => rfl
  have er : idx_main_v7 (ridx_main_v8 (ix2 r n) k) = ix2 n k := funext fun a => by
    match a with | ⟨0, _⟩ => rfl | ⟨1, _⟩ => rfl
  rw [el, val_main_v7_apply, er, book_at]

/-- Entry (r, n) of the reference's logits. -/
theorem logit_at (x0 : X0) (x1 : X1) (r : Fin 16384) (n : Fin 1024) :
    val_main_v17 (F := Ideal) x0 x1 (ix2 r n) = logit (inRow x0 r) (book x1) n := by
  have e3 : idx_main_v3 (idx_main_v11 (ix2 r n)) = ix1 r := funext fun a => by
    match a with | ⟨0, _⟩ => rfl
  have e6 : idx_main_v6 (idx_main_v13 (ix2 r n)) = ix1 n := funext fun a => by
    match a with | ⟨0, _⟩ => rfl
  rw [val_main_v17_apply, val_main_v15_apply, val_main_v14_apply, val_main_v12_apply, val_main_v11_apply,
    val_main_v3_apply, e3, rowSq_at, val_main_v10_apply, val_main_v9_apply, val_main_cst_1_apply, cross_at,
    val_main_v13_apply, val_main_v6_apply, e6, bookSq_at, val_main_v16_apply, val_main_cst_2_apply]
  rfl

end Cert.ReferenceIdeal.RefValue

end
-- ==== Proof.RefSoft.lean ====
/-
  The reference's two softmaxes.  The reshaped logits of input row r are its 32 × 32 grid; the maximum down each
  column and along each row is a fold of `max` from −∞ over the 32 entries, capped below by −∞ once more; the shifted
  exponentials, their sums down a column and along a row, the two quotients and their product are read off the
  reference's operations one at a time.
-/
import proofs.«101707_j67894843015429_1_alg».proof.Proof.RefLogit

noncomputable section

namespace Cert.ReferenceIdeal.RefValue

open Cert.ReferenceIdeal Cert.ReferenceIdeal.Read Idealize.ShloMosaic Idealize.ShloMosaic.ValueIdx Cert.Som

open Cert.ReferenceIdeal.Gen

/-- The grid of logits of input row `r`. -/
def rowGrid (x0 : X0) (x1 : X1) (r : Fin 16384) : Grid := grid (inRow x0 r) (book x1)

/-- The reshaped logits are the grid: entry (r, a, b) is the logit of cell (a, b). -/
theorem grid_at (x0 : X0) (x1 : X1) (r : Fin 16384) (a b : Fin 32) :
    val_main_v18 (F := Ideal) x0 x1 (ix3 r a b) = rowGrid x0 x1 r a b := by
  have e : idx_main_v18 (ix3 r a b) = ix2 r (cell a b) := funext fun c => Fin.ext (by
    have hr := r.isLt
    have ha := a.isLt
    have hb := b.isLt
    match c with
    | ⟨0, _⟩ => show ((r.val * 32 + a.val) * 32 + b.val) / 1024 = r.val; omega
    | ⟨1, _⟩ => show ((r.val * 32 + a.val) * 32 + b.val) % 1024 = a.val * 32 + b.val; omega)
  rw [val_main_v18_apply, e, logit_at]
  rfl

/-! ## Down the columns -/

/-- The maximum down column `b`: the fold of `max` from −∞ over the column's 32 entries. -/
theorem colFold_at (x0 : X0) (x1 : X1) (r : Fin 16384) (b : Fin 32) :
    val_main_v19 (F := Ideal) x0 x1 (ix2 r b)
      = (Finset.univ : Finset (Fin 32)).fold max ninf fun a => rowGrid x0 x1 r a b := by
  have hl : ∀ (h : S16384x32x32.Reduces [1] S16384x32) (k : Fin 32), h.lift (ix2 r b) k = ix3 r k b :=
    fun h k => funext fun c => Fin.ext (by match c with | ⟨0, _⟩ => rfl | ⟨1, _⟩ => rfl | ⟨2, _⟩ => rfl)
  unfold val_main_v19
  show Host.reduce (max : EReal → EReal → EReal) (val_main_v18 (F := Ideal) x0 x1) (val_main_cst_3 (F := Ideal))
    reducesTo_S16384x32x32_S16384x32_d1 h_S_ (ix2 r b) = _
  have h : S16384x32x32.Reduces [1] S16384x32 := by decide
  rw [Host.reduce_eq_fold_single max _ _ reducesTo_S16384x32x32_S16384x32_d1 h h_S_]
  exact Finset.fold_congr fun k _ =>
    (congrArg (val_main_v18 (F := Ideal) x0 x1) (hl h k)).trans (grid_at x0 x1 r k b)

theorem colMax_at (x0 : X0) (x1 : X1) (r : Fin 16384) (b : Fin 32) :
    val_main_v21 (F := Ideal) x0 x1 (ix2 r b) = colMax (rowGrid x0 x1 r) b := by
  rw [val_main_v21_apply, val_main_v20_apply, val_main_cst_4_apply, colFold_at]
  rfl

theorem colExp_at (x0 : X0) (x1 : X1) (r : Fin 16384) (a b : Fin 32) :
    val_main_v25 (F := Ideal) x0 x1 (ix3 r a b) = colExp (rowGrid x0 x1 r) a b := by
  have e : idx_main_v22 (idx_main_v23 (ix3 r a b)) = ix2 r b := funext fun c => by
    match c with | ⟨0, _⟩ => rfl | ⟨1, _⟩ => rfl
  rw [val_main_v25_apply, val_main_v24_apply, grid_at, val_main_v23_apply, val_main_v22_apply, e, colMax_at]
  rfl

theorem colSum_at (x0 : X0) (x1 : X1) (r : Fin 16384) (b : Fin 32) :
    val_main_v26 (F := Ideal) x0 x1 (ix2 r b) = ∑ a : Fin 32, colExp (rowGrid x0 x1 r) a b := by
  rw [val_main_v26_apply, val_main_cst_5_apply, Ideal.ofBits_def, Ideal.ofBits_zero_f32, zero_add]
  refine Finset.sum_congr rfl fun k _ => ?_
  have e : idx_main_v26 (ix2 r b) k = ix3 r k b := funext fun c => by
    match c with | ⟨0, _⟩ => rfl | ⟨1, _⟩ => rfl | ⟨2, _⟩ => rfl
  rw [e, colExp_at]

theorem colSoft_at (x0 : X0) (x1 : X1) (r : Fin 16384) (a b : Fin 32) :
    val_main_v29 (F := Ideal) x0 x1 (ix3 r a b) = colSoft (rowGrid x0 x1 r) a b := by
  have e : idx_main_v27 (idx_main_v28 (ix3 r a b)) = ix2 r b := funext fun c => by
    match c with | ⟨0, _⟩ => rfl | ⟨1, _⟩ => rfl
  rw [val_main_v29_apply, colExp_at, val_main_v28_apply, val_main_v27_apply, e, colSum_at]
  rfl

/-! ## Along the rows -/

/-- The maximum along row `a`: the fold of `max` from −∞ over the row's 32 entries. -/
theorem rowFold_at (x0 : X0) (x1 : X1) (r : Fin 16384) (a : Fin 32) :
    val_main_v30 (F := Ideal) x0 x1 (ix2 r a)
      = (Finset.univ : Finset (Fin 32)).fold max ninf fun b => rowGrid x0 x1 r a b := by
  have hl : ∀ (h : S16384x32x32.Reduces [2] S16384x32) (k : Fin 32), h.lift (ix2 r a) k = ix3 r a k :=
    fun h k => funext fun c => Fin.ext (by match c with | ⟨0, _⟩ => rfl | ⟨1, _⟩ => rfl | ⟨2, _⟩ => rfl)
  unfold val_main_v30
  show Host.reduce (max : EReal → EReal → EReal) (val_main_v18 (F := Ideal) x0 x1) (val_main_cst_6 (F := Ideal))
    reducesTo_S16384x32x32_S16384x32_d2 h_S_ (ix2 r a) = _
  have h : S16384x32x32.Reduces [2] S16384x32 := by decide
  rw [Host.reduce_eq_fold_single max _ _ reducesTo_S16384x32x32_S16384x32_d2 h h_S_]
  exact Finset.fold_congr fun k _ =>
    (congrArg (val_main_v18 (F := Ideal) x0 x1) (hl h k)).trans (grid_at x0 x1 r a k)

theorem rowMax_at (x0 : X0) (x1 : X1) (r : Fin 16384) (a : Fin 32) :
    val_main_v32 (F := Ideal) x0 x1 (ix2 r a) = rowMax (rowGrid x0 x1 r) a := by
  rw [val_main_v32_apply, val_main_v31_apply, val_main_cst_7_apply, rowFold_at]
  rfl

theorem rowExp_at (x0 : X0) (x1 : X1) (r : Fin 16384) (a b : Fin 32) :
    val_main_v36 (F := Ideal) x0 x1 (ix3 r a b) = rowExp (rowGrid x0 x1 r) a b := by
  have e : idx_main_v33 (idx_main_v34 (ix3 r a b)) = ix2 r a := funext fun c => by
    match c with | ⟨0, _⟩ => rfl | ⟨1, _⟩ => rfl
  rw [val_main_v36_apply, val_main_v35_apply, grid_at, val_main_v34_apply, val_main_v33_apply, e, rowMax_at]
  rfl

theorem rowSum_at (x0 : X0) (x1 : X1) (r : Fin 16384) (a : Fin 32) :
    val_main_v37 (F := Ideal) x0 x1 (ix2 r a) = ∑ b : Fin 32, rowExp (rowGrid x0 x1 r) a b := by
  rw [val_main_v37_apply, val_main_cst_8_apply, Ideal.ofBits_def, Ideal.ofBits_zero_f32, zero_add]
  refine Finset.sum_congr rfl fun k _ => ?_
  have e : idx_main_v37 (ix2 r a) k = ix3 r a k := funext fun c => by
    match c with | ⟨0, _⟩ => rfl | ⟨1, _⟩ => rfl | ⟨2, _⟩ => rfl
  rw [e, rowExp_at]

theorem rowSoft_at (x0 : X0) (x1 : X1) (r : Fin 16384) (a b : Fin 32) :
    val_main_v40 (F := Ideal) x0 x1 (ix3 r a b) = rowSoft (rowGrid x0 x1 r) a b := by
  have e : idx_main_v38 (idx_main_v39 (ix3 r a b)) = ix2 r a := funext fun c => by
    match c with | ⟨0, _⟩ => rfl | ⟨1, _⟩ => rfl
  rw [val_main_v40_apply, rowExp_at, val_main_v39_apply, val_main_v38_apply, e, rowSum_at]
  rfl

/-- The product of the two softmaxes at cell (a, b). -/
theorem both_at (x0 : X0) (x1 : X1) (r : Fin 16384) (a b : Fin 32) :
    val_main_v41 (F := Ideal) x0 x1 (ix3 r a b) = both (rowGrid x0 x1 r) a b := by
  rw [val_main_v41_apply, colSoft_at, rowSoft_at]
  rfl

end Cert.ReferenceIdeal.RefValue

end
-- ==== Proof.RefValue.lean ====
/-
  The reference's normalisation and its second matrix product.  The total mass of the product of the two softmaxes
  is the reference's sum over both grid axes: the indices of the 16384 × 32 × 32 array that keep row r are exactly
  the (r, a, b), so that sum is the double sum over a and b.  The weights are the product over the mass plus the
  small constant; flattened back to 1024 cells, cell n carries the weight of grid cell (n / 32, n % 32); the output
  row is their weighted sum of the codebook vectors.  Every entry of the reference's result is therefore the
  specification's.
-/
import proofs.«101707_j67894843015429_1_alg».proof.Proof.RefSoft

noncomputable section

namespace Cert.ReferenceIdeal.RefValue

open Cert.ReferenceIdeal Cert.ReferenceIdeal.Read Idealize.ShloMosaic Idealize.ShloMosaic.ValueIdx Cert.Som

open Cert.ReferenceIdeal.Gen

/-- The indices of the three-axis array whose first coordinate is `r`, summed, are the double sum over the other
    two coordinates. -/
theorem sum_drop_grid (h : S16384x32x32.ReducesTo [1, 2] S16384) (x : S16384x32x32.Idx → EReal) (r : Fin 16384) :
    ∑ i ∈ Finset.univ.filter (fun i => h.drop i = ix1 r), x i = ∑ a : Fin 32, ∑ b : Fin 32, x (ix3 r a b) := by
  have hd : ∀ i : S16384x32x32.Idx, h.drop i = ix1 (i 0) := fun i => funext fun c => by
    match c with | ⟨0, _⟩ => exact Fin.ext rfl
  have hr : ∀ i : S16384x32x32.Idx, h.drop i = ix1 r → ix3 r (i 1) (i 2) = i := fun i hi => by
    rw [hd] at hi
    have h0 : i 0 = r := congrFun hi 0
    rw [← h0]
    exact (eq_ix3 i).symm
  refine Eq.trans ?_ (Fintype.sum_prod_type' fun a b : Fin 32 => x (ix3 r a b))
  refine Finset.sum_nbij' (fun i => ((i 1, i 2) : Fin 32 × Fin 32)) (fun p => ix3 r p.1 p.2) ?_ ?_ ?_ ?_ ?_
  · intro i _; exact Finset.mem_univ _
  · intro p _; exact Finset.mem_filter.2 ⟨Finset.mem_univ _, hd _⟩
  · intro i hi; exact hr i (Finset.mem_filter.1 hi).2
  · intro p _; rfl
  · intro i hi; exact congrArg x (hr i (Finset.mem_filter.1 hi).2).symm

/-- The sum of the product of the two softmaxes over the whole grid of row `r`. -/
theorem total_at (x0 : X0) (x1 : X1) (r : Fin 16384) :
    val_main_v42 (F := Ideal) x0 x1 (ix1 r) = ∑ a : Fin 32, ∑ b : Fin 32, both (rowGrid x0 x1 r) a b := by
  unfold val_main_v42
  simp only [Host.reduceAdd, Ideal.hostReduceAdd_def]
  unfold Ideal.hostReduceAdd
  rw [sum_drop_grid, val_main_cst_9_apply, Ideal.ofBits_def, Ideal.ofBits_zero_f32, zero_add]
  exact Finset.sum_congr rfl fun a _ => Finset.sum_congr rfl fun b _ => both_at x0 x1 r a b

/-- The total mass plus the small constant. -/
theorem mass_at (x0 : X0) (x1 : X1) (r : Fin 16384) :
    val_main_v45 (F := Ideal) x0 x1 (ix3 r (0 : Fin 1) (0 : Fin 1)) = mass (rowGrid x0 x1 r) := by
  have e : idx_main_v43 (ix3 r (0 : Fin 1) (0 : Fin 1)) = ix1 r := funext fun c => by
    match c with | ⟨0, _⟩ => rfl
  rw [val_main_v45_apply, val_main_v43_apply, e, total_at, val_main_v44_apply, val_main_cst_10_apply]
  rfl

/-- The normalised weight of cell (a, b). -/
theorem weight_at (x0 : X0) (x1 : X1) (r : Fin 16384) (a b : Fin 32) :
    val_main_v47 (F := Ideal) x0 x1 (ix3 r a b) = weight (rowGrid x0 x1 r) a b := by
  have e : idx_main_v46 (ix3 r a b) = ix3 r (0 : Fin 1) (0 : Fin 1) := funext fun c => by
    match c with | ⟨0, _⟩ => rfl | ⟨1, _⟩ => rfl | ⟨2, _⟩ => rfl
  rw [val_main_v47_apply, both_at, val_main_v46_apply, e, mass_at]
  rfl

/-- Flattened back to 1024 cells: cell `n` carries the weight of grid cell (n / 32, n % 32). -/
theorem flat_at (x0 : X0) (x1 : X1) (r : Fin 16384) (n : Fin 1024) :
    val_main_v48 (F := Ideal) x0 x1 (ix2 r n) = weight (rowGrid x0 x1 r) (cellRow n) (cellCol n) := by
  have e : idx_main_v48 (ix2 r n) = ix3 r (cellRow n) (cellCol n) := funext fun c => Fin.ext (by
    have hr := r.isLt
    have hn := n.isLt
    match c with
    | ⟨0, _⟩ => show (r.val * 1024 + n.val) / 1024 = r.val; omega
    | ⟨1, _⟩ => show (r.val * 1024 + n.val) / 32 % 32 = n.val / 32; omega
    | ⟨2, _⟩ => show (r.val * 1024 + n.val) % 32 = n.val % 32; omega)
  rw [val_main_v48_apply, e, weight_at]

/-- Entry (r, d) of the reference's result: the output row of input row `r` at `d`. -/
theorem out_at (x0 : X0) (x1 : X1) (r : Fin 16384) (d : Fin 1024) :
    val_main_v49 (F := Ideal) x0 x1 (ix2 r d) = rowOut (inRow x0 r) (book x1) d := by
  rw [val_main_v49_apply]
  unfold rowOut
  refine Finset.sum_congr rfl fun k _ => ?_
  have el : lidx_main_v49 (ix2 r d) k = ix2 r k := funext fun c => by
    match c with | ⟨0, _⟩ => rfl | ⟨1, _⟩ => rfl
  have er : ridx_main_v49 (ix2 r d) k = ix2 k d := funext fun c => by
    match c with | ⟨0, _⟩ => rfl | ⟨1, _⟩ => rfl
  rw [el, er, flat_at, book_at]
  rfl

/-- The reference computes the layer. -/
theorem ref_eq (x0 : X0) (x1 : X1) : val_main_v49 (F := Ideal) x0 x1 = layer x0 x1 := by
  funext i
  obtain ⟨r, d, rfl⟩ : ∃ (r : Fin 16384) (d : Fin 1024), i = ix2 r d := ⟨i 0, i 1, eq_ix2 i⟩
  exact out_at x0 x1 r d

end Cert.ReferenceIdeal.RefValue

end
-- ==== Proof.lean ====
/-
  A soft self-organising-map layer: a kernel over blocks of 512 input rows against the plain reference, equal at exact
  arithmetic.

  Both programs compute, for every input row x and the 1024 codebook vectors W n laid out on a 32 × 32 map, the logits
  −(‖x‖² − 2·⟨x, W n⟩ + ‖W n‖²) / 1, a softmax of the map down its columns and one along its rows, their product
  normalised by its total mass plus a small constant, and the weighted sum of the codebook vectors
  (Proof/Spec.lean states this as one function, `Cert.Som.layer`). They differ in how the work is cut and spelt:
  the kernel handles 512 rows at a time, writes the negation as 0 − y, sums the mass along the map's rows and then
  down the column of row sums where the reference sums over both axes at once, and uses matrix products into a zero
  accumulator where the reference uses the host's product. On the extended reals 0 − y = −y and a sum over a 32 × 32
  grid is the double sum, whatever the values; no finiteness is needed, so the precondition is never opened.

  The kernel's side (Proof/KerLogit.lean, KerSoft.lean, KerOut.lean, KerArray.lean): each stage of the block's
  payload read at an entry, then the 32 written-back blocks tiling the result array. The reference's side
  (Proof/RefLogit.lean, RefSoft.lean, RefValue.lean): each host operation read at an entry. The three frames are
  the programs' runs with the results dropped; the idealisation rewrote nothing, so its claim is trivial.
-/
import proofs.«101707_j67894843015429_1_alg».proof.Defs
import proofs.«101707_j67894843015429_1_alg».proof.Proof.Gen.Kernel
import proofs.«101707_j67894843015429_1_alg».proof.Proof.Gen.Kernel.Skeleton
import proofs.«101707_j67894843015429_1_alg».proof.Proof.Gen.Kernel.Launch
import proofs.«101707_j67894843015429_1_alg».proof.Proof.Gen.Kernel.Points
import proofs.«101707_j67894843015429_1_alg».proof.Proof.Gen.Kernel.Frame
import proofs.«101707_j67894843015429_1_alg».proof.Proof.Gen.KernelIdeal
import proofs.«101707_j67894843015429_1_alg».proof.Proof.Gen.KernelIdeal.Skeleton
import proofs.«101707_j67894843015429_1_alg».proof.Proof.Gen.KernelIdeal.Launch
import proofs.«101707_j67894843015429_1_alg».proof.Proof.Gen.KernelIdeal.Points
import proofs.«101707_j67894843015429_1_alg».proof.Proof.Gen.KernelIdeal.Frame
import proofs.«101707_j67894843015429_1_alg».proof.Proof.Gen.ReferenceIdeal
import proofs.«101707_j67894843015429_1_alg».proof.Proof.Gen.Pre_finite_inputs
import proofs.«101707_j67894843015429_1_alg».proof.Proof.Gen.KernelIdeal.Value
import proofs.«101707_j67894843015429_1_alg».proof.Proof.Gen.ReferenceIdeal.Run
import proofs.«101707_j67894843015429_1_alg».proof.Proof.Gen.ReferenceIdeal.Read
import proofs.«101707_j67894843015429_1_alg».proof.Proof.KerArray
import proofs.«101707_j67894843015429_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read at exact arithmetic. -/
theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two arguments both programs end with the layer of those arguments in their
    result arrays. -/
theorem algebraic : Cert.algebraic_KernelIdeal_ReferenceIdeal := by
  intro m ρ m' ρ' _ hagree
  refine ⟨fun c => Cert.Som.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.SomValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v49_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
